-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S32x64 : Shape := ⟨2, ![32, 64]⟩
abbrev S3200000 : Shape := ⟨1, ![3200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S3200000 : S_.BroadcastsInDim S3200000 (![] : Fin 0 → Fin S3200000.rank)
  reducesTo_S3200000_S_d0 : S3200000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg11 : FVec F S64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg8 : FVec F S64x64 .f32) (main_arg9 : FVec F S64 .f32) (main_arg10 : FVec F S64x64 .f32) (main_arg11 : FVec F S64 .f32) (main_v13 : IVec S_ 1) (main_v16 : IVec S3200000 1) : IVec S_ 1 :=
  let main_c_5 : IVec S_ 1 := constantI S_ 1 1#1
  let main_v17 : IVec S_ 1 := (fun x v => Host.reduce IntOp.andi x v reducesTo_S3200000_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg11 main_v33

def fn {F : FTy → Type} [FloatOps F] (main_arg0 : FVec F S100000x64 .f32) (main_arg1 : FVec F S32x64 .f32) (main_arg2 : IVec S3200000 32) (main_arg3 : IVec S3200000 32) (main_arg4 : FVec F S3200000 .f32) (main_arg5 : IVec S3200000 32) (main_arg6 : IVec S3200000 32) (main_arg7 : FVec F S3200000 .f32) (main_arg8 : FVec F S64x64 .f32) (main_arg9 : FVec F S64 .f32) (main_arg10 : FVec F S64x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S3200000 .f32 := Host.absf main_arg4
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_v14 : FVec F S3200000 .f32 := Host.absf main_arg7
  let main_cst_4 : FVec F S_ .f32 := constant S_ .f32 0x7F800000#32
  let main_v15 : FVec F S3200000 .f32 := broadcastInDim S3200000 ![] bcast_S_S3200000 main_cst_4
  let main_v16 : IVec S3200000 1 := cmpf .olt main_v14 main_v15
  fn_part1 (F := F) main_arg8 main_arg9 main_arg10 main_arg11 main_v13 main_v16
-- ==== Kernel.lean ====
abbrev S100000x64 : Shape := ⟨2, ![100000, 64]⟩
abbrev S32x64 : Shape := ⟨2, ![32, 64]⟩
abbrev S3200000 : Shape := ⟨1, ![3200000]⟩
abbrev S64x64 : Shape := ⟨2, ![64, 64]⟩
abbrev S64 : Shape := ⟨1, ![64]⟩
abbrev S3200000x1 : Shape := ⟨2, ![3200000, 1]⟩
abbrev S_ : Shape := ⟨0, ![]⟩
abbrev S3200000x64 : Shape := ⟨2, ![3200000, 64]⟩
abbrev S1x64 : Shape := ⟨2, ![1, 64]⟩
abbrev S10000x64 : Shape := ⟨2, ![10000, 64]⟩

abbrev nBuf : Space → Nat
  | .hbm => 53
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S32x64, .f32⟩
  | .hbm, ⟨2, _⟩ => ⟨S3200000, .i32⟩
  | .hbm, ⟨3, _⟩ => ⟨S3200000, .i32⟩
  | .hbm, ⟨4, _⟩ => ⟨S3200000, .f32⟩
  | .hbm, ⟨5, _⟩ => ⟨S3200000, .i32⟩
  | .hbm, ⟨6, _⟩ => ⟨S3200000, .i32⟩
  | .hbm, ⟨7, _⟩ => ⟨S3200000, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x64, .f32⟩
  | .hbm, ⟨22, _⟩ => ⟨S3200000x64, .f32⟩
  | .hbm, ⟨23, _⟩ => ⟨S3200000x64, .f32⟩
  | .hbm, ⟨24, _⟩ => ⟨S_, .f32⟩
  | .hbm, ⟨25, _⟩ => ⟨S100000x64, .f32⟩
  | .hbm, ⟨26, _⟩ => ⟨S3200000x1, .i32⟩
  | .hbm, ⟨27, _⟩ => ⟨S100000x64, .f32⟩
  | .hbm, ⟨28, _⟩ => ⟨S3200000x1, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x64, .f32⟩
  | .hbm, ⟨38, _⟩ => ⟨S3200000x64, .f32⟩
  | .hbm, ⟨39, _⟩ => ⟨S3200000x64, .f32⟩
  | .hbm, ⟨40, _⟩ => ⟨S_, .f32⟩
  | .hbm, ⟨41, _⟩ => ⟨S100000x64, .f32⟩
  | .hbm, ⟨42, _⟩ => ⟨S3200000x1, .i32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S64x64, .f32⟩
  | .hbm, ⟨49, _⟩ => ⟨S64x64, .f32⟩
  | .hbm, ⟨50, _⟩ => ⟨S1x64, .f32⟩
  | .hbm, ⟨51, _⟩ => ⟨S1x64, .f32⟩
  | .hbm, ⟨52, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  gather_S32x64_S3200000x1_S3200000x64_1_0_n_n_0_1_164_wf : GatherDims.WF S32x64 S3200000x1 S3200000x64 [1] [0] [] [0] [] 1 ![1, 64]
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S32x64_S3200000x1_S3200000x64_1_0_n_n_0_1_164 : GatherDims S32x64 S3200000x1 S3200000x64 where
  offsetDims := [1]
  collapsedSliceDims := [0]
  operandBatchingDims := []
  startIndicesBatchingDims := []
  startIndexMap := [0]
  indexVectorDim := 1
  sliceSizes := ![1, 64]
  wf := gather_S32x64_S3200000x1_S3200000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S32x64 : Shape := ⟨2, ![32, 64]⟩
abbrev S3200000 : Shape := ⟨1, ![3200000]⟩
abbrev S64x64 : Shape := ⟨2, ![64, 64]⟩
abbrev S64 : Shape := ⟨1, ![64]⟩
abbrev S3200000x1 : Shape := ⟨2, ![3200000, 1]⟩
abbrev S_ : Shape := ⟨0, ![]⟩
abbrev S3200000x64 : Shape := ⟨2, ![3200000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S32x64, .f32⟩
  | .hbm, ⟨2, _⟩ => ⟨S3200000, .i32⟩
  | .hbm, ⟨3, _⟩ => ⟨S3200000, .i32⟩
  | .hbm, ⟨4, _⟩ => ⟨S3200000, .f32⟩
  | .hbm, ⟨5, _⟩ => ⟨S3200000, .i32⟩
  | .hbm, ⟨6, _⟩ => ⟨S3200000, .i32⟩
  | .hbm, ⟨7, _⟩ => ⟨S3200000, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x64, .f32⟩
  | .hbm, ⟨22, _⟩ => ⟨S3200000x64, .f32⟩
  | .hbm, ⟨23, _⟩ => ⟨S3200000x64, .f32⟩
  | .hbm, ⟨24, _⟩ => ⟨S_, .f32⟩
  | .hbm, ⟨25, _⟩ => ⟨S100000x64, .f32⟩
  | .hbm, ⟨26, _⟩ => ⟨S3200000x1, .i32⟩
  | .hbm, ⟨27, _⟩ => ⟨S100000x64, .f32⟩
  | .hbm, ⟨28, _⟩ => ⟨S3200000x1, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x64, .f32⟩
  | .hbm, ⟨38, _⟩ => ⟨S3200000x64, .f32⟩
  | .hbm, ⟨39, _⟩ => ⟨S3200000x64, .f32⟩
  | .hbm, ⟨40, _⟩ => ⟨S_, .f32⟩
  | .hbm, ⟨41, _⟩ => ⟨S100000x64, .f32⟩
  | .hbm, ⟨42, _⟩ => ⟨S3200000x1, .i32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S64x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S_, .f32⟩
  | .hbm, ⟨56, _⟩ => ⟨S100000x64, .f32⟩
  | .hbm, ⟨57, _⟩ => ⟨S100000x64, .i1⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S64x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S_, .f32⟩
  | .hbm, ⟨70, _⟩ => ⟨S100000x64, .f32⟩
  | .hbm, ⟨71, _⟩ => ⟨S100000x64, .i1⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v42 : Ref sig .tc := ⟨.hbm, 75, rfl⟩
abbrev main_v43 : Ref sig .tc := ⟨.hbm, 76, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  gather_S32x64_S3200000x1_S3200000x64_1_0_n_n_0_1_164_wf : GatherDims.WF S32x64 S3200000x1 S3200000x64 [1] [0] [] [0] [] 1 ![1, 64]
  dot_S100000x64_S64x64_S100000x64_1_0_0_1_n_n_wf : DotDims.WF S100000x64 S64x64 S100000x64 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S32x64_S3200000x1_S3200000x64_1_0_n_n_0_1_164 : GatherDims S32x64 S3200000x1 S3200000x64 where
  offsetDims := [1]
  collapsedSliceDims := [0]
  operandBatchingDims := []
  startIndicesBatchingDims := []
  startIndexMap := [0]
  indexVectorDim := 1
  sliceSizes := ![1, 64]
  wf := gather_S32x64_S3200000x1_S3200000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDotPlain.lean ====
/-
  A plain matrix product — an M×K matrix times a K×N matrix, the left factor contracted on its last axis and the
  right factor on its first — at the ideal values. Read at entry (r, c), both the product accumulated into the zero
  matrix and the host's contraction are the sum over k of (r, k) times (k, c): no rounding, no order of summation.
  Nothing here mentions a program: literal ranks, symbolic extents.
-/
import Idealize.ShloMosaic.PureOps.Ideal.Laws
import Idealize.ShloMosaic.Lib.ValueIdx

noncomputable section

namespace Cert.DotPlain

open Idealize.ShloMosaic Idealize.ShloMosaic.ValueIdx

variable {M K N : Nat}

/-- The contraction index of the plain product is one coordinate below K. -/
abbrev kEquiv (M K N : Nat) : (DotDims.plain M K N).contr.Idx ≃ Fin K := contrEquiv1 (DotDims.plain M K N) K rfl rfl

/-- The left factor is read at (row of the entry, k). -/
theorem lhsIdx_eq (r : Fin M) (c : Fin N) (k : Fin K) :
    (DotDims.plain M K N).lhsIdx (ix2 r c) ((kEquiv M K N).symm k) = ix2 r k :=
  funext fun a => Fin.ext (by
    match a with
    | ⟨0, _⟩ => rfl
    | ⟨1, _⟩ => exact ((DotDims.plain M K N).lhsIdx_val_of_single rfl _ _).trans (contrEquiv1_symm_val _ K rfl rfl k))

/-- The right factor is read at (k, column of the entry). -/
theorem rhsIdx_eq (r : Fin M) (c : Fin N) (k : Fin K) :
    (DotDims.plain M K N).rhsIdx (ix2 r c) ((kEquiv M K N).symm k) = ix2 k c :=
  funext fun a => Fin.ext (by
    match a with
    | ⟨0, _⟩ => exact ((DotDims.plain M K N).rhsIdx_val_of_single rfl _ _).trans (contrEquiv1_symm_val _ K rfl rfl k)
    | ⟨1, _⟩ => rfl)

/-- The contraction's sum, re-indexed by the one coordinate k. -/
theorem sum_eq (lhs : (⟨2, ![M, K]⟩ : Shape).Idx → EReal) (rhs : (⟨2, ![K, N]⟩ : Shape).Idx → EReal) (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (kEquiv M K N).symm]
  exact Finset.sum_congr rfl fun k _ => by rw [lhsIdx_eq, rhsIdx_eq]

/-- The product accumulated into the zero matrix, at entry (r, c). -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (sum_eq lhs rhs r c)

/-- The host's contraction, at entry (r, c). -/
theorem dotGeneral_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) :=
  (Ideal.dotGeneral_apply (DotDims.plain M K N) prec _ lhs rhs (ix2 r c)).trans (sum_eq lhs rhs r c)

end Cert.DotPlain

end
-- ==== Proof.Cell.lean ====
/-
  The mathematics both programs compute, stated once and over no program.
  One output entry (r, c) of the aggregator is, on the extended reals,
      L( Σₖ (ego[r,k] + side[r,k]) · W1[c,k] + b1[c] )  +  L( Σₖ (ego[r,k] · side[r,k]) · W2[c,k] + b2[c] ),
  where L(x) = x if x ≥ 0 and α·x otherwise, α the slope word 0x3C23D70A both programs carry. It depends on row r of
  ego and side, on row c of each weight matrix (column c of its transpose) and on entry c of each bias, and on nothing
  else. The array the run leaves is this entry at every index.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Agg

open Idealize.ShloMosaic Idealize.ShloMosaic.ValueIdx

/-- The leaky rectifier: x where x ≥ 0, the slope word times x elsewhere (the comparison and the product are the
    extended reals' own). -/
def lrelu (x : Ideal .f32) : Ideal .f32 :=
  Scalar.select (FloatOps.cmpf .oge x (Scalar.ofBits (F := Ideal) .f32 0x00000000#32)) x
    (FloatOps.mulf (Scalar.ofBits (F := Ideal) .f32 0x3C23D70A#32) x)

/-- One output entry from the entry's row of ego and of side (e, s), its column of each transposed weight matrix
    (w1, w2) and its entry of each bias (b1, b2). -/
def cell (e s w1 w2 : Fin 64 → EReal) (b1 b2 : EReal) : EReal :=
  lrelu ((∑ k : Fin 64, (e k + s k) * w1 k) + b1) + lrelu ((∑ k : Fin 64, (e k * s k) * w2 k) + b2)

/-- Row r of a matrix with 64 columns. -/
abbrev rowOf {R : Nat} (A : (⟨2, ![R, 64]⟩ : Shape).Idx → EReal) (r : Fin R) : Fin 64 → EReal := fun k => A (ix2 r k)

/-- Column c of a 64×64 matrix. -/
abbrev colOf (A : (⟨2, ![64, 64]⟩ : Shape).Idx → EReal) (c : Fin 64) : Fin 64 → EReal := fun k => A (ix2 k c)

/-- The result array in the arguments' own arrangement: weights as given (row c of W is read), biases as vectors. -/
def out {R : Nat} (ego side : (⟨2, ![R, 64]⟩ : Shape).Idx → EReal) (W1 : (⟨2, ![64, 64]⟩ : Shape).Idx → EReal)
    (b1 : (⟨1, ![64]⟩ : Shape).Idx → EReal) (W2 : (⟨2, ![64, 64]⟩ : Shape).Idx → EReal) (b2 : (⟨1, ![64]⟩ : Shape).Idx → EReal) :
    (⟨2, ![R, 64]⟩ : Shape).Idx → EReal :=
  fun i => cell (rowOf ego (i 0)) (rowOf side (i 0)) (rowOf W1 (i 1)) (rowOf W2 (i 1)) (b1 (ix1 (i 1))) (b2 (ix1 (i 1)))

/-- The same array in the arrangement the kernel's windows hold: the weights already transposed (column c is read),
    each bias a one-row matrix. -/
def outT {R : Nat} (ego side : (⟨2, ![R, 64]⟩ : Shape).Idx → EReal) (W1T : (⟨2, ![64, 64]⟩ : Shape).Idx → EReal)
    (b1r : (⟨2, ![1, 64]⟩ : Shape).Idx → EReal) (W2T : (⟨2, ![64, 64]⟩ : Shape).Idx → EReal) (b2r : (⟨2, ![1, 64]⟩ : Shape).Idx → EReal) :
    (⟨2, ![R, 64]⟩ : Shape).Idx → EReal :=
  fun i => cell (rowOf ego (i 0)) (rowOf side (i 0)) (colOf W1T (i 1)) (colOf W2T (i 1)) (b1r (ix2 (0 : Fin 1) (i 1))) (b2r (ix2 (0 : Fin 1) (i 1)))

/-- Column c of the transpose is row c of the matrix, and entry (0, c) of a vector recast as one row is its entry c:
    the windows' arrangement of the weights and biases gives the arguments' arrangement of the result. -/
theorem outT_eq_out {R : Nat} (ego side : (⟨2, ![R, 64]⟩ : Shape).Idx → EReal)
    (W1 W2 : (⟨2, ![64, 64]⟩ : Shape).Idx → EReal) (b1 b2 : (⟨1, ![64]⟩ : Shape).Idx → EReal)
    (ht : (⟨2, ![64, 64]⟩ : Shape).Transposes [1, 0] ⟨2, ![64, 64]⟩) (hc : (⟨1, ![64]⟩ : Shape).ShapeCasts ⟨2, ![1, 64]⟩) :
    outT ego side (transpose ⟨2, ![64, 64]⟩ [1, 0] W1 ht) (shapeCast ⟨2, ![1, 64]⟩ b1 hc)
        (transpose ⟨2, ![64, 64]⟩ [1, 0] W2 ht) (shapeCast ⟨2, ![1, 64]⟩ b2 hc)
      = out ego side W1 b1 W2 b2 := by
  funext i
  unfold outT out
  have e1 : colOf (transpose ⟨2, ![64, 64]⟩ [1, 0] W1 ht) (i 1) = rowOf W1 (i 1) :=
    funext fun k => transpose_ix2_apply W1 ht k (i 1)
  have e2 : colOf (transpose ⟨2, ![64, 64]⟩ [1, 0] W2 ht) (i 1) = rowOf W2 (i 1) :=
    funext fun k => transpose_ix2_apply W2 ht k (i 1)
  rw [e1, e2, shapeCast_a_1a_apply b1 hc 0 (i 1), shapeCast_a_1a_apply b2 hc 0 (i 1)]

end Cert.Agg

end
-- ==== Proof.KernelEntry.lean ====
/-
  What the kernel's body stores, read at one entry. From the blocks it loads — a block of rows of ego (x0) and of
  side (x1), the two transposed weight matrices (x5, x7) and the two biases as one-row matrices (x9, x11) — the body
  forms ego + side and ego · side, multiplies each by its weight matrix into the zero matrix, adds the bias row to
  every row, applies the leaky rectifier and adds the two. At entry (p, q) of the block that is the entry of the
  specification built from row p of x0 and x1, column q of x5 and x7, and entry (0, q) of x9 and x11.
-/
import proofs.«150613_j14817637171432_1_alg».proof.Proof.Gen.KernelIdeal.Skeleton
import proofs.«150613_j14817637171432_1_alg».proof.Proof.LibDotPlain
import proofs.«150613_j14817637171432_1_alg».proof.Proof.Cell

noncomputable section

namespace Cert.KernelIdeal.Entry

open Cert.KernelIdeal Cert.KernelIdeal.Gen Idealize.ShloMosaic Idealize.ShloMosaic.ValueIdx Cert.Agg

/-- The body's dimension numbers are those of the plain product of a 10000×64 block with a 64×64 matrix. -/
theorem dot_eq : dot_S10000x64_S64x64_S10000x64_1_0_0_1_n_n = DotDims.plain 10000 64 64 := rfl

/-- The stored value at entry (p, q) of the block. -/
theorem pay_apply (x0 x1 : Vec Ideal S10000x64 .f32) (x5 x7 : Vec Ideal S64x64 .f32) (x9 x11 : Vec Ideal S1x64 .f32)
    (p : Fin 10000) (q : Fin 64) :
    k0_pay1 x0 x1 x5 x7 x9 x11 (ix2 p q)
      = cell (rowOf x0 p) (rowOf x1 p) (colOf x5 q) (colOf x7 q) (x9 (ix2 (0 : Fin 1) q)) (x11 (ix2 (0 : Fin 1) q)) := by
  unfold k0_pay1
  simp only [shapeCast_self, dot_eq]
  unfold cell lrelu
  simp only [addf_apply, select_apply, cmpf_apply, mulf_apply, broadcast_apply, Cert.DotPlain.matmul_zero_apply,
    broadcastTo_1b_ab_apply]
  rfl

end Cert.KernelIdeal.Entry

end
-- ==== Proof.KernelData.lean ====
/- The program's own lines restated as data; nothing here is an argument. -/
import proofs.«150613_j14817637171432_1_alg».proof.Proof.Gen.KernelIdeal

noncomputable section

namespace Cert.KernelIdeal.Data

open Cert.KernelIdeal Cert.KernelIdeal.Gen Idealize.ShloMosaic Idealize.ShloMosaic.TcCoe Idealize.SL.Sem

variable {F : FTy → Type} [FloatOps F]

/-- The neighbourhood aggregate side as the program computes it on the host, before anything else reads it:
    each edge list gathers rows of its table, scales them by the edge values and scatter-adds them into zero
    rows; the second aggregate is scaled by the constant 0x3DCCCCCD and added to the first. -/
def side (a0 : (⟨S100000x64, .f32⟩ : BufTy).Contents (Elt F)) (a1 : (⟨S32x64, .f32⟩ : BufTy).Contents (Elt F))
    (a2 a3 : (⟨S3200000, .i32⟩ : BufTy).Contents (Elt F)) (a4 : (⟨S3200000, .f32⟩ : BufTy).Contents (Elt F))
    (a5 a6 : (⟨S3200000, .i32⟩ : BufTy).Contents (Elt F)) (a7 : (⟨S3200000, .f32⟩ : BufTy).Contents (Elt F)) :
    (⟨S100000x64, .f32⟩ : BufTy).Contents (Elt F) :=
  let v0 := broadcastInDim S3200000x1 ![0] bcast_S3200000_S3200000x1_0 a4
  let c := constantI S_ 32 0#32
  let v1 := broadcastInDim S3200000 ![] bcast_S_S3200000 c
  let v2 := cmpi .slt a3 v1
  let c_0 := constantI S_ 32 100000#32
  let v3 := broadcastInDim S3200000 ![] bcast_S_S3200000 c_0
  let v4 := addi a3 v3
  let v5 := select v2 v4 a3
  let v6 := broadcastInDim S3200000x1 ![0] bcast_S3200000_S3200000x1_0 v5
  let v7 := Host.gather gather_S100000x64_S3200000x1_S3200000x64_1_0_n_n_0_1_164 a0 v6
  let v8 := broadcastInDim S3200000x64 ![0, 1] bcast_S3200000x1_S3200000x64_0_1 v0
  let v9 := mulf v8 v7
  let cst := constant (F := F) S_ .f32 0x00000000#32
  let v10 := broadcastInDim S100000x64 ![] bcast_S_S100000x64 cst
  let v11 := broadcastInDim S3200000x1 ![0] bcast_S3200000_S3200000x1_0 a2
  let v12 := Host.scatterAdd scatter_S100000x64_S3200000x1_S3200000x64_1_0_0_1 v10 v11 v9
  let v13 := broadcastInDim S3200000x1 ![0] bcast_S3200000_S3200000x1_0 a7
  let c_1 := constantI S_ 32 0#32
  let v14 := broadcastInDim S3200000 ![] bcast_S_S3200000 c_1
  let v15 := cmpi .slt a6 v14
  let c_2 := constantI S_ 32 32#32
  let v16 := broadcastInDim S3200000 ![] bcast_S_S3200000 c_2
  let v17 := addi a6 v16
  let v18 := select v15 v17 a6
  let v19 := broadcastInDim S3200000x1 ![0] bcast_S3200000_S3200000x1_0 v18
  let v20 := Host.gather gather_S32x64_S3200000x1_S3200000x64_1_0_n_n_0_1_164 a1 v19
  let v21 := broadcastInDim S3200000x64 ![0, 1] bcast_S3200000x1_S3200000x64_0_1 v13
  let v22 := mulf v21 v20
  let cst_3 := constant (F := F) S_ .f32 0x00000000#32
  let v23 := broadcastInDim S100000x64 ![] bcast_S_S100000x64 cst_3
  let v24 := broadcastInDim S3200000x1 ![0] bcast_S3200000_S3200000x1_0 a5
  let v25 := Host.scatterAdd scatter_S100000x64_S3200000x1_S3200000x64_1_0_0_1 v23 v24 v22
  let cst_4 := constant (F := F) S_ .f32 0x3DCCCCCD#32
  let v26 := broadcastInDim S100000x64 ![] bcast_S_S100000x64 cst_4
  let v27 := mulf v26 v25
  let v28 := addf v12 v27
  v28

end Cert.KernelIdeal.Data

end
-- ==== Proof.KernelHost.lean ====
/-
  What the kernel's region finds in the arrays its host operations wrote. Before the launch the program computes the
  neighbourhood aggregate side from the arguments (its first thirty-six operations), transposes the two weight
  matrices and recasts the two bias vectors as one-row matrices; the region's windows 1 to 5 stage exactly those
  five arrays, and window 0 stages ego itself.
-/
import proofs.«150613_j14817637171432_1_alg».proof.Proof.Gen.KernelIdeal.Frame
import proofs.«150613_j14817637171432_1_alg».proof.Proof.KernelData

noncomputable section

namespace Cert.KernelIdeal.Host

open Cert.KernelIdeal Cert.KernelIdeal.Gen Cert.KernelIdeal.Data Idealize.ShloMosaic Idealize.ShloMosaic.TcCoe Idealize.SL.Sem
  Idealize.ShloMosaic.StableHlo

variable {F : FTy → Type} [FloatOps F]
variable (m : (ℓ : Loc nD τ sig) → Buf (Elt F) ℓ)

/-- Window 1's array is side of the arguments as launched. -/
theorem V_side (c : Dev nD) :
    (V m c main_v28 : (⟨S100000x64, .f32⟩ : BufTy).Contents (Elt F))
      = side (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [V, hostOps0]
  after_results_simp
  rfl

/-- Window 2's array is the first weight matrix transposed. -/
theorem V_w1t (c : Dev nD) :
    (V m c main_v29 : (⟨S64x64, .f32⟩ : BufTy).Contents (Elt F))
      = transpose S64x64 [1, 0] (m ((c : Thread nD τ).loc main_arg8)) transposes_S64x64_S64x64_1_0 := by
  dsimp only [V, hostOps0]
  after_results_simp

/-- Window 4's array is the second weight matrix transposed. -/
theorem V_w2t (c : Dev nD) :
    (V m c main_v30 : (⟨S64x64, .f32⟩ : BufTy).Contents (Elt F))
      = transpose S64x64 [1, 0] (m ((c : Thread nD τ).loc main_arg10)) transposes_S64x64_S64x64_1_0 := by
  dsimp only [V, hostOps0]
  after_results_simp

/-- Window 3's array is the first bias recast as one row. -/
theorem V_b1 (c : Dev nD) :
    (V m c main_v31 : (⟨S1x64, .f32⟩ : BufTy).Contents (Elt F))
      = shapeCast S1x64 (m ((c : Thread nD τ).loc main_arg9)) shapeCasts_S64_S1x64 := by
  dsimp only [V, hostOps0]
  after_results_simp
  rfl

/-- Window 5's array is the second bias recast as one row. -/
theorem V_b2 (c : Dev nD) :
    (V m c main_v32 : (⟨S1x64, .f32⟩ : BufTy).Contents (Elt F))
      = shapeCast S1x64 (m ((c : Thread nD τ).loc main_arg11)) shapeCasts_S64_S1x64 := by
  dsimp only [V, hostOps0]
  after_results_simp
  rfl

end Cert.KernelIdeal.Host

end
-- ==== Proof.KernelArray.lean ====
/-
  From the blocks to the array. The region has ten grid points; point t stages rows 10000·t … 10000·t + 9999 of ego
  and of side, the whole of the two transposed weight matrices and of the two bias rows, and writes back rows
  10000·t … 10000·t + 9999 of the result. What it writes is, entry by entry, the specification's entry built from the
  staged arrays, so every block is the restriction of ONE whole-array function; the ten blocks tile the 100000 rows
  (row R lies in block R / 10000), hence the array the run leaves is that function. Rewritten through what the host
  operations put in the staged arrays, it is the specification over the arguments themselves.
  Which array entry a block entry is, and which indices a block covers, do not depend on what the floats are: those
  facts are stated for any float values; only the arithmetic of one entry is read at the extended reals.
-/
import proofs.«150613_j14817637171432_1_alg».proof.Proof.Gen.KernelIdeal.Value
import proofs.«150613_j14817637171432_1_alg».proof.Proof.KernelEntry
import proofs.«150613_j14817637171432_1_alg».proof.Proof.KernelHost

noncomputable section

namespace Cert.KernelIdeal.Whole

open Cert.KernelIdeal Cert.KernelIdeal.Gen Idealize.ShloMosaic Idealize.ShloMosaic.TcCoe Idealize.SL.Sem
  Idealize.ShloMosaic.ValueIdx Cert.Agg
open Idealize.ShloMosaic.Pipeline (Dat)

/-! ## One entry, over no program -/

/-- The stored value at any index of the block: the specification's entry from the index's row and column. -/
theorem pay_at (x0 x1 : Vec Ideal S10000x64 .f32) (x5 x7 : Vec Ideal S64x64 .f32) (x9 x11 : Vec Ideal S1x64 .f32)
    (j : S10000x64.Idx) :
    k0_pay1 x0 x1 x5 x7 x9 x11 j
      = cell (rowOf (R := 10000) x0 (j 0)) (rowOf (R := 10000) x1 (j 0)) (colOf x5 (j 1)) (colOf x7 (j 1))
          (x9 (ix2 (0 : Fin 1) (j 1))) (x11 (ix2 (0 : Fin 1) (j 1))) := by
  obtain ⟨p, q, rfl⟩ : ∃ (p : Fin 10000) (q : Fin 64), j = ix2 p q := ⟨j 0, j 1, eq_ix2 j⟩
  exact Entry.pay_apply x0 x1 x5 x7 x9 x11 p q

/-- Equal rows, columns and bias entries give equal entries. -/
theorem cell_congr {e e' s s' w1 w1' w2 w2' : Fin 64 → EReal} {b1 b1' b2 b2' : EReal}
    (he : e = e') (hs : s = s') (h1 : w1 = w1') (h2 : w2 = w2') (hb1 : b1 = b1') (hb2 : b2 = b2') :
    cell e s w1 w2 b1 b2 = cell e' s' w1' w2' b1' b2' := by
  subst he hs h1 h2 hb1 hb2; rfl

/-- AT ONE ENTRY, for any arrays and blocks: if the block of ego and of side hold, in block row j₀, the arrays' row i₀,
    if the staged weight blocks hold, in column j₁, the arrays' column i₁, and the staged bias rows hold at j₁ the arrays'
    entry at i₁, then the value stored at block index j is the whole-array function at i. -/
theorem point_core (A0 A1 : S100000x64.Idx → EReal) (B2 B4 : S64x64.Idx → EReal) (B3 B5 : S1x64.Idx → EReal)
    (x0 x1 : Vec Ideal S10000x64 .f32) (x5 x7 : Vec Ideal S64x64 .f32) (x9 x11 : Vec Ideal S1x64 .f32)
    (j : S10000x64.Idx) (i : S100000x64.Idx)
    (r0 : ∀ k : Fin 64, x0 (ix2 (j 0) k) = A0 (ix2 (i 0) k))
    (r1 : ∀ k : Fin 64, x1 (ix2 (j 0) k) = A1 (ix2 (i 0) k))
    (c2 : ∀ k : Fin 64, x5 (ix2 k (j 1)) = B2 (ix2 k (i 1)))
    (c4 : ∀ k : Fin 64, x7 (ix2 k (j 1)) = B4 (ix2 k (i 1)))
    (b3 : x9 (ix2 (0 : Fin 1) (j 1)) = B3 (ix2 (0 : Fin 1) (i 1)))
    (b5 : x11 (ix2 (0 : Fin 1) (j 1)) = B5 (ix2 (0 : Fin 1) (i 1))) :
    k0_pay1 x0 x1 x5 x7 x9 x11 j = outT (R := 100000) A0 A1 B2 B3 B4 B5 i :=
  (pay_at x0 x1 x5 x7 x9 x11 j).trans (cell_congr (funext r0) (funext r1) (funext c2) (funext c4) b3 b5)

/-! ## The windows: which array entry a block entry is, and which indices a block covers (any float values) -/

section AnyFloats

variable {F : FTy → Type} [FloatOps F] (mF : (ℓ : Loc nD τ sig) → Buf (Elt F) ℓ)

/-- Window 0's block at point t, read at a block index y, is its array at the index whose coordinate on each axis is the
    block index times the block size plus y's coordinate. -/
theorem iblk0_apply (c : Dev nD) (t : Fin cfg0.N) (y : S10000x64.Idx) (i : S100000x64.Idx)
    (h0 : (i 0).val = win0_0.index t (0 : Fin 2) * 10000 + 1 * (y 0).val)
    (h1 : (i 1).val = win0_0.index t (1 : Fin 2) * 64 + 1 * (y 1).val) :
    iblk mF c 0 t y = V mF c main_arg0 i := by
  show V mF c main_arg0 (((cfg0.win 0).blk t).view.emb y) = V mF c main_arg0 i
  refine congrArg _ (funext fun a => Fin.ext ?_)
  match a with
  | ⟨0, _⟩ => exact h0.symm
  | ⟨1, _⟩ => exact h1.symm

/-- Window 1's block at point t, read at a block index y, is its array at the index whose coordinate on each axis is the
    block index times the block size plus y's coordinate. -/
theorem iblk1_apply (c : Dev nD) (t : Fin cfg0.N) (y : S10000x64.Idx) (i : S100000x64.Idx)
    (h0 : (i 0).val = win0_1.index t (0 : Fin 2) * 10000 + 1 * (y 0).val)
    (h1 : (i 1).val = win0_1.index t (1 : Fin 2) * 64 + 1 * (y 1).val) :
    iblk mF c 1 t y = V mF c main_v28 i := by
  show V mF c main_v28 (((cfg0.win 1).blk t).view.emb y) = V mF c main_v28 i
  refine congrArg _ (funext fun a => Fin.ext ?_)
  match a with
  | ⟨0, _⟩ => exact h0.symm
  | ⟨1, _⟩ => exact h1.symm

/-- Window 2's block at point t, read at a block index y, is its array at the index whose coordinate on each axis is the
    block index times the block size plus y's coordinate. -/
theorem iblk2_apply (c : Dev nD) (t : Fin cfg0.N) (y : S64x64.Idx) (i : S64x64.Idx)
    (h0 : (i 0).val = win0_2.index t (0 : Fin 2) * 64 + 1 * (y 0).val)
    (h1 : (i 1).val = win0_2.index t (1 : Fin 2) * 64 + 1 * (y 1).val) :
    iblk mF c 2 t y = V mF c main_v29 i := by
  show V mF c main_v29 (((cfg0.win 2).blk t).view.emb y) = V mF c main_v29 i
  refine congrArg _ (funext fun a => Fin.ext ?_)
  match a with
  | ⟨0, _⟩ => exact h0.symm
  | ⟨1, _⟩ => exact h1.symm

/-- Window 3's block at point t, read at a block index y, is its array at the index whose coordinate on each axis is the
    block index times the block size plus y's coordinate. -/
theorem iblk3_apply (c : Dev nD) (t : Fin cfg0.N) (y : S1x64.Idx) (i : S1x64.Idx)
    (h0 : (i 0).val = win0_3.index t (0 : Fin 2) * 1 + 1 * (y 0).val)
    (h1 : (i 1).val = win0_3.index t (1 : Fin 2) * 64 + 1 * (y 1).val) :
    iblk mF c 3 t y = V mF c main_v31 i := by
  show V mF c main_v31 (((cfg0.win 3).blk t).view.emb y) = V mF c main_v31 i
  refine congrArg _ (funext fun a => Fin.ext ?_)
  match a with
  | ⟨0, _⟩ => exact h0.symm
  | ⟨1, _⟩ => exact h1.symm

/-- Window 4's block at point t, read at a block index y, is its array at the index whose coordinate on each axis is the
    block index times the block size plus y's coordinate. -/
theorem iblk4_apply (c : Dev nD) (t : Fin cfg0.N) (y : S64x64.Idx) (i : S64x64.Idx)
    (h0 : (i 0).val = win0_4.index t (0 : Fin 2) * 64 + 1 * (y 0).val)
    (h1 : (i 1).val = win0_4.index t (1 : Fin 2) * 64 + 1 * (y 1).val) :
    iblk mF c 4 t y = V mF c main_v30 i := by
  show V mF c main_v30 (((cfg0.win 4).blk t).view.emb y) = V mF c main_v30 i
  refine congrArg _ (funext fun a => Fin.ext ?_)
  match a with
  | ⟨0, _⟩ => exact h0.symm
  | ⟨1, _⟩ => exact h1.symm

/-- Window 5's block at point t, read at a block index y, is its array at the index whose coordinate on each axis is the
    block index times the block size plus y's coordinate. -/
theorem iblk5_apply (c : Dev nD) (t : Fin cfg0.N) (y : S1x64.Idx) (i : S1x64.Idx)
    (h0 : (i 0).val = win0_5.index t (0 : Fin 2) * 1 + 1 * (y 0).val)
    (h1 : (i 1).val = win0_5.index t (1 : Fin 2) * 64 + 1 * (y 1).val) :
    iblk mF c 5 t y = V mF c main_v32 i := by
  show V mF c main_v32 (((cfg0.win 5).blk t).view.emb y) = V mF c main_v32 i
  refine congrArg _ (funext fun a => Fin.ext ?_)
  match a with
  | ⟨0, _⟩ => exact h0.symm
  | ⟨1, _⟩ => exact h1.symm

end AnyFloats

theorem hz : (![0, 0] : Fin 2 → Nat) = fun _ => 0 := funext fun a => by fin_cases a <;> rfl

/-- The printed index maps, decided over the ten grid points: ego's and side's blocks move with the output's along the
    rows, every other block index is zero, and the output's row-block index is at most nine. -/
theorem idx_facts : ∀ t : Fin cfg0.N, win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 9 :=
  (by decide +kernel : ∀ t : Fin grid0.N, _)

/-- Every row block is some point's. -/
theorem idx_onto : ∀ q0 : Fin 10, ∃ t : Fin cfg0.N, win0_6.index t = ![q0.val, 0] :=
  (by decide +kernel : ∀ q0 : Fin 10, ∃ t : Fin grid0.N, win0_6.index t = ![q0.val, 0])

/-- An index of the array is in point t's block iff each coordinate is in the block's range on its axis. -/
theorem mem_blk (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v33).slice (win0_6.rect t)).set ↔ _
  rw [View.set_slice_whole, Rect.mem_set_unit]
  exact Iff.rfl

/-- Every index of the result lies in some point's block: row R in block R / 10000. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := idx_onto ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

/-! ## The result array at the extended reals -/

variable (m : (ℓ : Loc nD τ sig) → Buf (Elt Ideal) ℓ) (ρ : Dev nD → PrngReg)

/-- The result as one function of the arrays the windows stage, index by index. -/
abbrev G (c : Dev nD) : S100000x64.Idx → Elt Ideal .f32 :=
  outT (R := 100000) (V m c main_arg0) (V m c main_v28) (V m c main_v29) (V m c main_v31) (V m c main_v30) (V m c main_v32)

/-- If the array index i sits where point t's output block puts the block index j (row 10000 · (block index) + j's row,
    column j's column), then what the body stores at j, computed from the point's staged blocks, is G at i. -/
theorem point_eq (c : Dev nD) (t : Fin cfg0.N) (j : S10000x64.Idx) (i : S100000x64.Idx)
    (o0 : (i 0).val = win0_6.index t (0 : Fin 2) * 10000 + 1 * (j 0).val)
    (o1 : (i 1).val = win0_6.index t (1 : Fin 2) * 64 + 1 * (j 1).val) :
    k0_pay1 (iblk m c 0 t) (iblk m c 1 t) (iblk m c 2 t) (iblk m c 4 t) (iblk m c 3 t) (iblk m c 5 t) j = G m c i := by
  obtain ⟨f00, f01, f10, f11, f20, f21, f30, f31, f40, f41, f50, f51, f61, f60⟩ := idx_facts t
  have hj0 : (j 0).val < 10000 := (j 0).isLt
  have hj1 : (j 1).val < 64 := (j 1).isLt
  exact point_core (V m c main_arg0) (V m c main_v28) (V m c main_v29) (V m c main_v30) (V m c main_v31) (V m c main_v32)
    (iblk m c 0 t) (iblk m c 1 t) (iblk m c 2 t) (iblk m c 4 t) (iblk m c 3 t) (iblk m c 5 t) j i
    (fun k => iblk0_apply m c t (ix2 (j 0) k : S10000x64.Idx) (ix2 (i 0) k : S100000x64.Idx)
      (by show (i 0).val = win0_0.index t (0 : Fin 2) * 10000 + 1 * (j 0).val; rw [f00]; exact o0)
      (by show k.val = win0_0.index t (1 : Fin 2) * 64 + 1 * k.val; omega))
    (fun k => iblk1_apply m c t (ix2 (j 0) k : S10000x64.Idx) (ix2 (i 0) k : S100000x64.Idx)
      (by show (i 0).val = win0_1.index t (0 : Fin 2) * 10000 + 1 * (j 0).val; rw [f10]; exact o0)
      (by show k.val = win0_1.index t (1 : Fin 2) * 64 + 1 * k.val; omega))
    (fun k => iblk2_apply m c t (ix2 k (j 1) : S64x64.Idx) (ix2 k (i 1) : S64x64.Idx)
      (by show k.val = win0_2.index t (0 : Fin 2) * 64 + 1 * k.val; omega)
      (by show (i 1).val = win0_2.index t (1 : Fin 2) * 64 + 1 * (j 1).val; omega))
    (fun k => iblk4_apply m c t (ix2 k (j 1) : S64x64.Idx) (ix2 k (i 1) : S64x64.Idx)
      (by show k.val = win0_4.index t (0 : Fin 2) * 64 + 1 * k.val; omega)
      (by show (i 1).val = win0_4.index t (1 : Fin 2) * 64 + 1 * (j 1).val; omega))
    (iblk3_apply m c t (ix2 (0 : Fin 1) (j 1) : S1x64.Idx) (ix2 (0 : Fin 1) (i 1) : S1x64.Idx)
      (by show 0 = win0_3.index t (0 : Fin 2) * 1 + 1 * 0; omega)
      (by show (i 1).val = win0_3.index t (1 : Fin 2) * 64 + 1 * (j 1).val; omega))
    (iblk5_apply m c t (ix2 (0 : Fin 1) (j 1) : S1x64.Idx) (ix2 (0 : Fin 1) (i 1) : S1x64.Idx)
      (by show 0 = win0_5.index t (0 : Fin 2) * 1 + 1 * 0; omega)
      (by show (i 1).val = win0_5.index t (1 : Fin 2) * 64 + 1 * (j 1).val; omega))

/-- WHAT POINT t WRITES BACK is block t of G. -/
theorem flushed_eq (c : Dev nD) (t : Fin cfg0.N) :
    (dats m 0 c).flushed 6 t = ((cfg0.win 6).blk t).view.read (Elt Ideal) (G m c) := by
  rw [Value.flushed6]
  unfold out0_6
  rw [View.canon_unit_zero hz]
  simp only [View.ld_unit_zero (S := S10000x64) hz, View.ld_unit_zero (S := S64x64) hz, View.ld_unit_zero (S := S1x64) hz]
  funext j
  show k0_pay1 (iblk m c 0 t) (iblk m c 1 t) (iblk m c 2 t) (iblk m c 4 t) (iblk m c 3 t) (iblk m c 5 t) j
      = G m c (((cfg0.win 6).blk t).view.emb j)
  exact point_eq m c t j (((cfg0.win 6).blk t).view.emb j) rfl rfl

/-- THE ARRAY after the run is G of the staged arrays. -/
theorem final (c : Dev nD) : (dats m 0 c).arrAt 6 cfg0.N = G m c :=
  (dats m 0 c).arrAt_eq_of_cover 6 (G m c) (fun t _ => flushed_eq m c t) cover

/-- G of the staged arrays is the specification over the arguments as launched. -/
theorem G_eq (c : Dev nD) :
    G m c = out (R := 100000) (m ((c : Thread nD τ).loc main_arg0)) (Data.side (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
      (m ((c : Thread nD τ).loc main_arg8)) (m ((c : Thread nD τ).loc main_arg9)) (m ((c : Thread nD τ).loc main_arg10)) (m ((c : Thread nD τ).loc main_arg11)) := by
  unfold G
  rw [V_main_arg0, Host.V_side, Host.V_w1t, Host.V_b1, Host.V_w2t, Host.V_b2]
  exact outT_eq_out _ _ _ _ _ _ _ _

/-- The kernel program's run: the result array is the specification over the arguments, the arguments unchanged. -/
theorem run : θ_run defs (onTc (τ := τ) (main (F := Ideal))) ⟨m, fun _ => 0, ρ⟩ fun r => ∀ c : Dev nD,
      r.2.mem ((c : Thread nD τ).loc main_v33)
          = out (R := 100000) (m ((c : Thread nD τ).loc main_arg0)) (Data.side (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
              (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans ((final m c).trans (G_eq m c)), (h c).2⟩) (Value.run_blocks m ρ)

end Cert.KernelIdeal.Whole

end
-- ==== Proof.RefData.lean ====
/- The program's own lines restated as data; nothing here is an argument. -/
import proofs.«150613_j14817637171432_1_alg».proof.Proof.Gen.ReferenceIdeal
import Idealize.ShloMosaic.Lib.StableHlo.Run

noncomputable section

namespace Cert.ReferenceIdeal.Data

open Cert.ReferenceIdeal Cert.ReferenceIdeal.Gen Idealize.ShloMosaic Idealize.ShloMosaic.TcCoe Idealize.SL.Sem Idealize.ShloMosaic.StableHlo

variable {F : FTy → Type} [FloatOps F]

/-- @main's 65 operations, in order; each call of the leaky rectifier is its seven operations over the call's buffers. -/
abbrev ops : List (HloOp τ sig (Elt F)) :=
  [ unary main_arg4 main_v0 (broadcastInDim S3200000x1 ![0] bcast_S3200000_S3200000x1_0 : (⟨S3200000, .f32⟩ : BufTy).Contents (Elt F) → (⟨S3200000x1, .f32⟩ : BufTy).Contents (Elt F)),
    nullary main_c (constantI S_ 32 0#32),
    unary main_c main_v1 (broadcastInDim S3200000 ![] bcast_S_S3200000 : (⟨S_, .i32⟩ : BufTy).Contents (Elt F) → (⟨S3200000, .i32⟩ : BufTy).Contents (Elt F)),
    binary main_arg3 main_v1 main_v2 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v3 (broadcastInDim S3200000 ![] bcast_S_S3200000 : (⟨S_, .i32⟩ : BufTy).Contents (Elt F) → (⟨S3200000, .i32⟩ : BufTy).Contents (Elt F)),
    binary main_arg3 main_v3 main_v4 (addi : (⟨S3200000, .i32⟩ : BufTy).Contents (Elt F) → (⟨S3200000, .i32⟩ : BufTy).Contents (Elt F) → (⟨S3200000, .i32⟩ : BufTy).Contents (Elt F)),
    ternary main_v2 main_v4 main_arg3 main_v5 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v5 main_v6 (broadcastInDim S3200000x1 ![0] bcast_S3200000_S3200000x1_0 : (⟨S3200000, .i32⟩ : BufTy).Contents (Elt F) → (⟨S3200000x1, .i32⟩ : BufTy).Contents (Elt F)),
    binary main_arg0 main_v6 main_v7 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    unary main_v0 main_v8 (broadcastInDim S3200000x64 ![0, 1] bcast_S3200000x1_S3200000x64_0_1 : (⟨S3200000x1, .f32⟩ : BufTy).Contents (Elt F) → (⟨S3200000x64, .f32⟩ : BufTy).Contents (Elt F)),
    binary main_v8 main_v7 main_v9 (mulf : (⟨S3200000x64, .f32⟩ : BufTy).Contents (Elt F) → (⟨S3200000x64, .f32⟩ : BufTy).Contents (Elt F) → (⟨S3200000x64, .f32⟩ : BufTy).Contents (Elt F)),
    nullary main_cst (constant S_ .f32 0x00000000#32),
    unary main_cst main_v10 (broadcastInDim S100000x64 ![] bcast_S_S100000x64 : (⟨S_, .f32⟩ : BufTy).Contents (Elt F) → (⟨S100000x64, .f32⟩ : BufTy).Contents (Elt F)),
    unary main_arg2 main_v11 (broadcastInDim S3200000x1 ![0] bcast_S3200000_S3200000x1_0 : (⟨S3200000, .i32⟩ : BufTy).Contents (Elt F) → (⟨S3200000x1, .i32⟩ : BufTy).Contents (Elt F)),
    ternary main_v10 main_v11 main_v9 main_v12 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    unary main_arg7 main_v13 (broadcastInDim S3200000x1 ![0] bcast_S3200000_S3200000x1_0 : (⟨S3200000, .f32⟩ : BufTy).Contents (Elt F) → (⟨S3200000x1, .f32⟩ : BufTy).Contents (Elt F)),
    nullary main_c_1 (constantI S_ 32 0#32),
    unary main_c_1 main_v14 (broadcastInDim S3200000 ![] bcast_S_S3200000 : (⟨S_, .i32⟩ : BufTy).Contents (Elt F) → (⟨S3200000, .i32⟩ : BufTy).Contents (Elt F)),
    binary main_arg6 main_v14 main_v15 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 32#32),
    unary main_c_2 main_v16 (broadcastInDim S3200000 ![] bcast_S_S3200000 : (⟨S_, .i32⟩ : BufTy).Contents (Elt F) → (⟨S3200000, .i32⟩ : BufTy).Contents (Elt F)),
    binary main_arg6 main_v16 main_v17 (addi : (⟨S3200000, .i32⟩ : BufTy).Contents (Elt F) → (⟨S3200000, .i32⟩ : BufTy).Contents (Elt F) → (⟨S3200000, .i32⟩ : BufTy).Contents (Elt F)),
    ternary main_v15 main_v17 main_arg6 main_v18 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v18 main_v19 (broadcastInDim S3200000x1 ![0] bcast_S3200000_S3200000x1_0 : (⟨S3200000, .i32⟩ : BufTy).Contents (Elt F) → (⟨S3200000x1, .i32⟩ : BufTy).Contents (Elt F)),
    binary main_arg1 main_v19 main_v20 ((fun x i => Host.gather gather_S32x64_S3200000x1_S3200000x64_1_0_n_n_0_1_164 x i) : (⟨S32x64, .f32⟩ : BufTy).Contents (Elt F) → (⟨S3200000x1, .i32⟩ : BufTy).Contents (Elt F) → (⟨S3200000x64, .f32⟩ : BufTy).Contents (Elt F)),
    unary main_v13 main_v21 (broadcastInDim S3200000x64 ![0, 1] bcast_S3200000x1_S3200000x64_0_1 : (⟨S3200000x1, .f32⟩ : BufTy).Contents (Elt F) → (⟨S3200000x64, .f32⟩ : BufTy).Contents (Elt F)),
    binary main_v21 main_v20 main_v22 (mulf : (⟨S3200000x64, .f32⟩ : BufTy).Contents (Elt F) → (⟨S3200000x64, .f32⟩ : BufTy).Contents (Elt F) → (⟨S3200000x64, .f32⟩ : BufTy).Contents (Elt F)),
    nullary main_cst_3 (constant S_ .f32 0x00000000#32),
    unary main_cst_3 main_v23 (broadcastInDim S100000x64 ![] bcast_S_S100000x64 : (⟨S_, .f32⟩ : BufTy).Contents (Elt F) → (⟨S100000x64, .f32⟩ : BufTy).Contents (Elt F)),
    unary main_arg5 main_v24 (broadcastInDim S3200000x1 ![0] bcast_S3200000_S3200000x1_0 : (⟨S3200000, .i32⟩ : BufTy).Contents (Elt F) → (⟨S3200000x1, .i32⟩ : BufTy).Contents (Elt F)),
    ternary main_v23 main_v24 main_v22 main_v25 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    nullary main_cst_4 (constant S_ .f32 0x3DCCCCCD#32),
    unary main_cst_4 main_v26 (broadcastInDim S100000x64 ![] bcast_S_S100000x64 : (⟨S_, .f32⟩ : BufTy).Contents (Elt F) → (⟨S100000x64, .f32⟩ : BufTy).Contents (Elt F)),
    binary main_v26 main_v25 main_v27 (mulf : (⟨S100000x64, .f32⟩ : BufTy).Contents (Elt F) → (⟨S100000x64, .f32⟩ : BufTy).Contents (Elt F) → (⟨S100000x64, .f32⟩ : BufTy).Contents (Elt F)),
    binary main_v12 main_v27 main_v28 (addf : (⟨S100000x64, .f32⟩ : BufTy).Contents (Elt F) → (⟨S100000x64, .f32⟩ : BufTy).Contents (Elt F) → (⟨S100000x64, .f32⟩ : BufTy).Contents (Elt F)),
    binary main_arg0 main_v28 main_v29 (addf : (⟨S100000x64, .f32⟩ : BufTy).Contents (Elt F) → (⟨S100000x64, .f32⟩ : BufTy).Contents (Elt F) → (⟨S100000x64, .f32⟩ : BufTy).Contents (Elt F)),
    unary main_arg8 main_v30 ((transpose S64x64 [1, 0] · transposes_S64x64_S64x64_1_0) : (⟨S64x64, .f32⟩ : BufTy).Contents (Elt F) → (⟨S64x64, .f32⟩ : BufTy).Contents (Elt F)),
    binary main_v29 main_v30 main_v31 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg9 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (addf : (⟨S100000x64, .f32⟩ : BufTy).Contents (Elt F) → (⟨S100000x64, .f32⟩ : BufTy).Contents (Elt F) → (⟨S100000x64, .f32⟩ : BufTy).Contents (Elt F)),
    nullary main_cst_5 (constant S_ .f32 0x3C23D70A#32),
    TRef.nullary main_call0.cst (constant S_ .f32 0x00000000#32),
    TRef.unary main_call0.cst main_call0.v0 (broadcastInDim S100000x64 ![] bcast_S_S100000x64),
    TRef.binary (.of main_v34) main_call0.v0 main_call0.v1 (cmpf .oge),
    TRef.unary (.of main_cst_5) main_call0.v2 id,
    TRef.unary main_call0.v2 main_call0.v3 (broadcastInDim S100000x64 ![] bcast_S_S100000x64),
    TRef.binary main_call0.v3 (.of main_v34) main_call0.v4 mulf,
    TRef.ternary main_call0.v1 (.of main_v34) main_call0.v4 main_call0.call0.v0 select,
    binary main_arg0 main_v28 main_v36 (mulf : (⟨S100000x64, .f32⟩ : BufTy).Contents (Elt F) → (⟨S100000x64, .f32⟩ : BufTy).Contents (Elt F) → (⟨S100000x64, .f32⟩ : BufTy).Contents (Elt F)),
    unary main_arg10 main_v37 ((transpose S64x64 [1, 0] · transposes_S64x64_S64x64_1_0) : (⟨S64x64, .f32⟩ : BufTy).Contents (Elt F) → (⟨S64x64, .f32⟩ : BufTy).Contents (Elt F)),
    binary main_v36 main_v37 main_v38 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg11 main_v39 (broadcastInDim S1x64 ![1] bcast_S64_S1x64_1 : (⟨S64, .f32⟩ : BufTy).Contents (Elt F) → (⟨S1x64, .f32⟩ : BufTy).Contents (Elt F)),
    unary main_v39 main_v40 (broadcastInDim S100000x64 ![0, 1] bcast_S1x64_S100000x64_0_1 : (⟨S1x64, .f32⟩ : BufTy).Contents (Elt F) → (⟨S100000x64, .f32⟩ : BufTy).Contents (Elt F)),
    binary main_v38 main_v40 main_v41 (addf : (⟨S100000x64, .f32⟩ : BufTy).Contents (Elt F) → (⟨S100000x64, .f32⟩ : BufTy).Contents (Elt F) → (⟨S100000x64, .f32⟩ : BufTy).Contents (Elt F)),
    nullary main_cst_6 (constant S_ .f32 0x3C23D70A#32),
    TRef.nullary main_call1.cst (constant S_ .f32 0x00000000#32),
    TRef.unary main_call1.cst main_call1.v0 (broadcastInDim S100000x64 ![] bcast_S_S100000x64),
    TRef.binary (.of main_v41) main_call1.v0 main_call1.v1 (cmpf .oge),
    TRef.unary (.of main_cst_6) main_call1.v2 id,
    TRef.unary main_call1.v2 main_call1.v3 (broadcastInDim S100000x64 ![] bcast_S_S100000x64),
    TRef.binary main_call1.v3 (.of main_v41) main_call1.v4 mulf,
    TRef.ternary main_call1.v1 (.of main_v41) main_call1.v4 main_call1.call0.v0 select,
    binary main_v42 main_v35 main_v43 (addf : (⟨S100000x64, .f32⟩ : BufTy).Contents (Elt F) → (⟨S100000x64, .f32⟩ : BufTy).Contents (Elt F) → (⟨S100000x64, .f32⟩ : BufTy).Contents (Elt F)) ]

/-- The neighbourhood aggregate side as the program computes it on the host, before anything else reads it:
    each edge list gathers rows of its table, scales them by the edge values and scatter-adds them into zero
    rows; the second aggregate is scaled by the constant 0x3DCCCCCD and added to the first. -/
def side (a0 : (⟨S100000x64, .f32⟩ : BufTy).Contents (Elt F)) (a1 : (⟨S32x64, .f32⟩ : BufTy).Contents (Elt F))
    (a2 a3 : (⟨S3200000, .i32⟩ : BufTy).Contents (Elt F)) (a4 : (⟨S3200000, .f32⟩ : BufTy).Contents (Elt F))
    (a5 a6 : (⟨S3200000, .i32⟩ : BufTy).Contents (Elt F)) (a7 : (⟨S3200000, .f32⟩ : BufTy).Contents (Elt F)) :
    (⟨S100000x64, .f32⟩ : BufTy).Contents (Elt F) :=
  let v0 := broadcastInDim S3200000x1 ![0] bcast_S3200000_S3200000x1_0 a4
  let c := constantI S_ 32 0#32
  let v1 := broadcastInDim S3200000 ![] bcast_S_S3200000 c
  let v2 := cmpi .slt a3 v1
  let c_0 := constantI S_ 32 100000#32
  let v3 := broadcastInDim S3200000 ![] bcast_S_S3200000 c_0
  let v4 := addi a3 v3
  let v5 := select v2 v4 a3
  let v6 := broadcastInDim S3200000x1 ![0] bcast_S3200000_S3200000x1_0 v5
  let v7 := Host.gather gather_S100000x64_S3200000x1_S3200000x64_1_0_n_n_0_1_164 a0 v6
  let v8 := broadcastInDim S3200000x64 ![0, 1] bcast_S3200000x1_S3200000x64_0_1 v0
  let v9 := mulf v8 v7
  let cst := constant (F := F) S_ .f32 0x00000000#32
  let v10 := broadcastInDim S100000x64 ![] bcast_S_S100000x64 cst
  let v11 := broadcastInDim S3200000x1 ![0] bcast_S3200000_S3200000x1_0 a2
  let v12 := Host.scatterAdd scatter_S100000x64_S3200000x1_S3200000x64_1_0_0_1 v10 v11 v9
  let v13 := broadcastInDim S3200000x1 ![0] bcast_S3200000_S3200000x1_0 a7
  let c_1 := constantI S_ 32 0#32
  let v14 := broadcastInDim S3200000 ![] bcast_S_S3200000 c_1
  let v15 := cmpi .slt a6 v14
  let c_2 := constantI S_ 32 32#32
  let v16 := broadcastInDim S3200000 ![] bcast_S_S3200000 c_2
  let v17 := addi a6 v16
  let v18 := select v15 v17 a6
  let v19 := broadcastInDim S3200000x1 ![0] bcast_S3200000_S3200000x1_0 v18
  let v20 := Host.gather gather_S32x64_S3200000x1_S3200000x64_1_0_n_n_0_1_164 a1 v19
  let v21 := broadcastInDim S3200000x64 ![0, 1] bcast_S3200000x1_S3200000x64_0_1 v13
  let v22 := mulf v21 v20
  let cst_3 := constant (F := F) S_ .f32 0x00000000#32
  let v23 := broadcastInDim S100000x64 ![] bcast_S_S100000x64 cst_3
  let v24 := broadcastInDim S3200000x1 ![0] bcast_S3200000_S3200000x1_0 a5
  let v25 := Host.scatterAdd scatter_S100000x64_S3200000x1_S3200000x64_1_0_0_1 v23 v24 v22
  let cst_4 := constant (F := F) S_ .f32 0x3DCCCCCD#32
  let v26 := broadcastInDim S100000x64 ![] bcast_S_S100000x64 cst_4
  let v27 := mulf v26 v25
  let v28 := addf v12 v27
  v28

/-- What the reference does with side (s): ego + s and ego · s, each times the transposed weight matrix, plus the
    bias broadcast over the rows, through the leaky rectifier; the second branch's result plus the first's. -/
def epilogue (a0 s : (⟨S100000x64, .f32⟩ : BufTy).Contents (Elt F)) (a8 : (⟨S64x64, .f32⟩ : BufTy).Contents (Elt F))
    (a9 : (⟨S64, .f32⟩ : BufTy).Contents (Elt F)) (a10 : (⟨S64x64, .f32⟩ : BufTy).Contents (Elt F))
    (a11 : (⟨S64, .f32⟩ : BufTy).Contents (Elt F)) : (⟨S100000x64, .f32⟩ : BufTy).Contents (Elt F) :=
  let v29 := addf a0 s
  let v30 := transpose S64x64 [1, 0] a8 transposes_S64x64_S64x64_1_0
  let v31 := Host.dotGeneral dot_S100000x64_S64x64_S100000x64_1_0_0_1_n_n none v29 v30
  let v32 := broadcastInDim S1x64 ![1] bcast_S64_S1x64_1 a9
  let v33 := broadcastInDim S100000x64 ![0, 1] bcast_S1x64_S100000x64_0_1 v32
  let v34 := addf v31 v33
  let cst_5 := constant (F := F) S_ .f32 0x3C23D70A#32
  let call0_cst := constant (F := F) S_ .f32 0x00000000#32
  let call0_v0 := (broadcastInDim S100000x64 ![] bcast_S_S100000x64) call0_cst
  let call0_v1 := (cmpf .oge) v34 call0_v0
  let call0_v2 := id cst_5
  let call0_v3 := (broadcastInDim S100000x64 ![] bcast_S_S100000x64) call0_v2
  let call0_v4 := mulf call0_v3 v34
  let v35 := select call0_v1 v34 call0_v4
  let v36 := mulf a0 s
  let v37 := transpose S64x64 [1, 0] a10 transposes_S64x64_S64x64_1_0
  let v38 := Host.dotGeneral dot_S100000x64_S64x64_S100000x64_1_0_0_1_n_n none v36 v37
  let v39 := broadcastInDim S1x64 ![1] bcast_S64_S1x64_1 a11
  let v40 := broadcastInDim S100000x64 ![0, 1] bcast_S1x64_S100000x64_0_1 v39
  let v41 := addf v38 v40
  let cst_6 := constant (F := F) S_ .f32 0x3C23D70A#32
  let call1_cst := constant (F := F) S_ .f32 0x00000000#32
  let call1_v0 := (broadcastInDim S100000x64 ![] bcast_S_S100000x64) call1_cst
  let call1_v1 := (cmpf .oge) v41 call1_v0
  let call1_v2 := id cst_6
  let call1_v3 := (broadcastInDim S100000x64 ![] bcast_S_S100000x64) call1_v2
  let call1_v4 := mulf call1_v3 v41
  let v42 := select call1_v1 v41 call1_v4
  let v43 := addf v42 v35
  v43

end Cert.ReferenceIdeal.Data

end
-- ==== Proof.RefRun.lean ====
/-
  The reference's run, read back. Its @main is a straight line of host operations (the two calls of the leaky
  rectifier being their bodies run on the calls' own buffers), so every weakly fair execution terminates with each
  buffer at the fold of the operations over the launch contents. Read at the result buffer that fold is the
  reference's last stretch of operations applied to ego, to the neighbourhood aggregate side — itself the first
  thirty-six operations applied to the arguments — and to the weights and biases; read at an argument it is the
  argument, which no operation writes.
-/
import proofs.«150613_j14817637171432_1_alg».proof.Proof.RefData

noncomputable section

namespace Cert.ReferenceIdeal.HostRun

open Cert.ReferenceIdeal Cert.ReferenceIdeal.Gen Cert.ReferenceIdeal.Data Idealize.ShloMosaic Idealize.ShloMosaic.TcCoe Idealize.SL.Sem
  Idealize.ShloMosaic.StableHlo

variable {F : FTy → Type} [FloatOps F]

set_option maxRecDepth 65536 in
/-- @main is that straight line: each call is its callee's body on the call's buffers, and sequencing computes. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig := by
  simp only [List.Forall, nullary_bufs_sub, unary_bufs_sub, binary_bufs_sub, ternary_bufs_sub, and_self]

/-- Every weakly fair execution of the reference terminates; every buffer ends at the operations' fold over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold at the result buffer: the last stretch of operations applied to ego, side, the weights and the biases. -/
theorem result_eq (V : Valuation τ sig (Elt F)) :
    after ops V (main_v43 : DevRef τ sig)
      = epilogue (V (main_arg0 : DevRef τ sig))
          (side (V (main_arg0 : DevRef τ sig)) (V (main_arg1 : DevRef τ sig)) (V (main_arg2 : DevRef τ sig)) (V (main_arg3 : DevRef τ sig))
            (V (main_arg4 : DevRef τ sig)) (V (main_arg5 : DevRef τ sig)) (V (main_arg6 : DevRef τ sig)) (V (main_arg7 : DevRef τ sig)))
          (V (main_arg8 : DevRef τ sig)) (V (main_arg9 : DevRef τ sig)) (V (main_arg10 : DevRef τ sig)) (V (main_arg11 : DevRef τ sig)) := by
  after_results_simp
  rfl

/-- No operation writes an argument. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp
theorem arg8_eq (V : Valuation τ sig (Elt F)) : after ops V (main_arg8 : DevRef τ sig) = V (main_arg8 : DevRef τ sig) := by
  after_results_simp
theorem arg9_eq (V : Valuation τ sig (Elt F)) : after ops V (main_arg9 : DevRef τ sig) = V (main_arg9 : DevRef τ sig) := by
  after_results_simp
theorem arg10_eq (V : Valuation τ sig (Elt F)) : after ops V (main_arg10 : DevRef τ sig) = V (main_arg10 : DevRef τ sig) := by
  after_results_simp
theorem arg11_eq (V : Valuation τ sig (Elt F)) : after ops V (main_arg11 : DevRef τ sig) = V (main_arg11 : DevRef τ sig) := by
  after_results_simp

/-- The reference's run: the result buffer ends at its last stretch of operations applied to ego, side of the arguments,
    the weights and the biases; the arguments end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
          = epilogue (m ((c.tc : Thread nD τ).loc main_arg0)) (side (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
              (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v43).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_fold m ρ)

end Cert.ReferenceIdeal.HostRun

end
-- ==== Proof.RefEntry.lean ====
/-
  The reference's last stretch of operations, read at one entry. With side given, the reference forms ego + side and
  ego · side, contracts each with the transposed weight matrix, adds the bias broadcast over the rows, applies the leaky
  rectifier (x where x ≥ 0, the slope word times x elsewhere) and adds the second branch's result to the first's. At
  entry (r, c) the contraction with the transpose is the sum over k of the row's entry k times the weight matrix's entry
  (c, k), the broadcast bias is the bias's entry c, and the two rectified branches are the specification's two summands
  in the other order; addition of extended reals commutes.
-/
import proofs.«150613_j14817637171432_1_alg».proof.Proof.RefData
import proofs.«150613_j14817637171432_1_alg».proof.Proof.LibDotPlain
import proofs.«150613_j14817637171432_1_alg».proof.Proof.Cell
import Idealize.ShloMosaic.Lib.IdealHost

noncomputable section

namespace Cert.ReferenceIdeal.Entry

open Cert.ReferenceIdeal Cert.ReferenceIdeal.Gen Cert.ReferenceIdeal.Data Idealize.ShloMosaic Idealize.ShloMosaic.ValueIdx Cert.Agg

/-- The reference's dimension numbers are those of the plain product of a 100000×64 matrix with a 64×64 matrix. -/
theorem dot_eq : dot_S100000x64_S64x64_S100000x64_1_0_0_1_n_n = DotDims.plain 100000 64 64 := rfl

/-- A bias vector broadcast to one row and that row over all rows reads, at (r, c), the vector's entry c. -/
theorem bias_apply (b : FVec Ideal S64 .f32) (r : Fin 100000) (c : Fin 64) :
    broadcastInDim S100000x64 ![0, 1] bcast_S1x64_S100000x64_0_1 (broadcastInDim S1x64 ![1] bcast_S64_S1x64_1 b) (ix2 r c)
      = b (ix1 c) := by
  rw [broadcastInDim_apply ![0, 1] bcast_S1x64_S100000x64_0_1 _ (ix2 r c) (ix2 (0 : Fin 1) c)
        (fun a => by match a with | ⟨0, _⟩ => rfl | ⟨1, _⟩ => rfl),
    broadcastInDim_apply ![1] bcast_S64_S1x64_1 b (ix2 (0 : Fin 1) c) (ix1 c)
        (fun a => by match a with | ⟨0, _⟩ => rfl)]

/-- The reference's last stretch is the specification, entry by entry. -/
theorem epilogue_eq (a0 s : FVec Ideal S100000x64 .f32) (a8 a10 : FVec Ideal S64x64 .f32) (a9 a11 : FVec Ideal S64 .f32) :
    epilogue (F := Ideal) a0 s a8 a9 a10 a11 = out (R := 100000) a0 s a8 a9 a10 a11 := by
  funext i
  obtain ⟨r, c, rfl⟩ : ∃ (r : Fin 100000) (c : Fin 64), i = ix2 r c := ⟨i 0, i 1, eq_ix2 i⟩
  show _ = cell (rowOf (R := 100000) a0 r) (rowOf (R := 100000) s r) (rowOf (R := 64) a8 c) (rowOf (R := 64) a10 c) (a9 (ix1 c)) (a11 (ix1 c))
  unfold epilogue cell lrelu
  simp only [dot_eq, addf_apply, select_apply, cmpf_apply, mulf_apply, id, Cert.DotPlain.dotGeneral_apply]
  have t8 : ∀ k : Fin 64, transpose S64x64 [1, 0] a8 transposes_S64x64_S64x64_1_0 (ix2 k c) = a8 (ix2 c k) :=
    fun k => transpose_ix2_apply a8 _ k c
  have t10 : ∀ k : Fin 64, transpose S64x64 [1, 0] a10 transposes_S64x64_S64x64_1_0 (ix2 k c) = a10 (ix2 c k) :=
    fun k => transpose_ix2_apply a10 _ k c
  have z0 : broadcastInDim S100000x64 ![] bcast_S_S100000x64 (constant (F := Ideal) S_ .f32 0x00000000#32) (ix2 r c)
      = Scalar.ofBits (F := Ideal) .f32 0x00000000#32 := by
    rw [broadcastInDim_scalar_apply]; rfl
  have zα : broadcastInDim S100000x64 ![] bcast_S_S100000x64 (constant (F := Ideal) S_ .f32 0x3C23D70A#32) (ix2 r c)
      = Scalar.ofBits (F := Ideal) .f32 0x3C23D70A#32 := by
    rw [broadcastInDim_scalar_apply]; rfl
  simp only [t8, t10, bias_apply a9 r c, bias_apply a11 r c, z0, zα]
  exact add_comm (G := EReal) _ _

end Cert.ReferenceIdeal.Entry

end
-- ==== Proof.lean ====
/-
  A message-passing aggregator: with side the neighbourhood aggregate of ego (two gather / scale / scatter-add passes
  over edge lists, the second scaled by a constant), the result is
      L((ego + side) · W1ᵀ + b1) + L((ego · side) · W2ᵀ + b2),      L(x) = x if x ≥ 0, α·x otherwise.
  Both programs compute side by the same host operations. The kernel then works on blocks of 10000 rows, with the
  weights transposed and the biases recast as rows beforehand; the reference works on whole arrays and adds its two
  branches in the other order. Over the extended reals the two results are one function of the arguments: a matrix
  product accumulated into zero and a contraction are the same sums, a block's entries depend only on the block's own
  rows, the blocks tile the array, and addition commutes. No step needs the inputs to be finite.
  The frames of the two kernel programs are the generated frame theorems; the reference's frame is its run with the
  result forgotten; the idealization rewrote nothing, so there is nothing to preserve.
-/
import proofs.«150613_j14817637171432_1_alg».proof.Defs
import proofs.«150613_j14817637171432_1_alg».proof.Proof.Gen.Kernel
import proofs.«150613_j14817637171432_1_alg».proof.Proof.Gen.Kernel.Skeleton
import proofs.«150613_j14817637171432_1_alg».proof.Proof.Gen.Kernel.Launch
import proofs.«150613_j14817637171432_1_alg».proof.Proof.Gen.Kernel.Points
import proofs.«150613_j14817637171432_1_alg».proof.Proof.Gen.Kernel.Frame
import proofs.«150613_j14817637171432_1_alg».proof.Proof.Gen.KernelIdeal
import proofs.«150613_j14817637171432_1_alg».proof.Proof.Gen.KernelIdeal.Skeleton
import proofs.«150613_j14817637171432_1_alg».proof.Proof.Gen.KernelIdeal.Launch
import proofs.«150613_j14817637171432_1_alg».proof.Proof.Gen.KernelIdeal.Points
import proofs.«150613_j14817637171432_1_alg».proof.Proof.Gen.KernelIdeal.Frame
import proofs.«150613_j14817637171432_1_alg».proof.Proof.Gen.KernelIdeal.Value
import proofs.«150613_j14817637171432_1_alg».proof.Proof.Gen.ReferenceIdeal
import proofs.«150613_j14817637171432_1_alg».proof.Proof.Gen.Pre_finite_inputs
import proofs.«150613_j14817637171432_1_alg».proof.Proof.KernelArray
import proofs.«150613_j14817637171432_1_alg».proof.Proof.RefRun
import proofs.«150613_j14817637171432_1_alg».proof.Proof.RefEntry
import Idealize.ShloMosaic.Adequacy
import Idealize.ShloMosaic.Init

noncomputable section

namespace Cert.Proof

open Idealize.ShloMosaic Idealize.ShloMosaic.TcCoe Idealize.SL.Sem

/-- The two programs compute side by the same operations on the same arguments: one function, whatever the floats are. -/
theorem side_eq {F : FTy → Type} [FloatOps F]
    (a0 : (⟨Cert.ReferenceIdeal.S100000x64, .f32⟩ : BufTy).Contents (Elt F)) (a1 : (⟨Cert.ReferenceIdeal.S32x64, .f32⟩ : BufTy).Contents (Elt F))
    (a2 a3 : (⟨Cert.ReferenceIdeal.S3200000, .i32⟩ : BufTy).Contents (Elt F)) (a4 : (⟨Cert.ReferenceIdeal.S3200000, .f32⟩ : BufTy).Contents (Elt F))
    (a5 a6 : (⟨Cert.ReferenceIdeal.S3200000, .i32⟩ : BufTy).Contents (Elt F)) (a7 : (⟨Cert.ReferenceIdeal.S3200000, .f32⟩ : BufTy).Contents (Elt F)) :
    Cert.ReferenceIdeal.Data.side (F := F) a0 a1 a2 a3 a4 a5 a6 a7
      = Cert.KernelIdeal.Data.side (F := F) a0 a1 a2 a3 a4 a5 a6 a7 := rfl

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- From memories that agree on the arguments, the kernel program's result array and the reference's are the
    specification over the same arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.HostRun.run (F := Ideal) m' ρ')
  obtain ⟨e0, e1, e2, e3, e4, e5, e6, e7, e8, e9, e10, e11⟩ := hagree c
  rw [e0, e1, e2, e3, e4, e5, e6, e7, e8, e9, e10, e11, Cert.ReferenceIdeal.Entry.epilogue_eq, side_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
